-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .ogt main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x512 .f32) (main_arg1 : FVec F S8192x8192 .f32) (main_arg2 : FVec F S512x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg1 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x512 : Shape := ⟨2, ![8192, 512]⟩
abbrev S8192x8192 : Shape := ⟨2, ![8192, 8192]⟩
abbrev S512x256 : Shape := ⟨2, ![512, 256]⟩
abbrev S8192x256 : Shape := ⟨2, ![8192, 256]⟩
abbrev S8192x1 : Shape := ⟨2, ![8192, 1]⟩
abbrev S512x8192 : Shape := ⟨2, ![512, 8192]⟩
abbrev S512x512 : Shape := ⟨2, ![512, 512]⟩
abbrev S512x1 : Shape := ⟨2, ![512, 1]⟩
abbrev S512 : Shape := ⟨1, ![512]⟩
abbrev S256x8192 : Shape := ⟨2, ![256, 8192]⟩
abbrev S256x1 : Shape := ⟨2, ![256, 1]⟩
abbrev S256x256 : Shape := ⟨2, ![256, 256]⟩
abbrev S256x2048 : Shape := ⟨2, ![256, 2048]⟩
abbrev S2048x256 : Shape := ⟨2, ![2048, 256]⟩

abbrev nBuf : Space → Nat
  | .hbm => 6
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S8192x256, .f32⟩
  | .hbm, ⟨4, _⟩ => ⟨S8192x1, .f32⟩
  | .hbm, ⟨5, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x1, .f32⟩
  | .local _ .vmem, ⟨8, _⟩ => ⟨S512x1, .f32⟩
  | .local _ .vmem, ⟨9, _⟩ => ⟨S256x8192, .f32⟩
  | .local _ .vmem, ⟨10, _⟩ => ⟨S256x8192, .f32⟩
  | .local _ .vmem, ⟨11, _⟩ => ⟨S8192x256, .f32⟩
  | .local _ .vmem, ⟨12, _⟩ => ⟨S256x1, .f32⟩
  | .local _ .vmem, ⟨13, _⟩ => ⟨S256x1, .f32⟩
  | .local _ .vmem, ⟨14, _⟩ => ⟨S256x256, .f32⟩
  | .local _ .vmem, ⟨15, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c2048_i32 : BitVec 32 := 2048#32
  let v17 : BitVec 32 := Scalar.muli arg5 c2048_i32
  v17
def k1_off1 (k1_t1 : Fin k1_t1_loop.trips) : Fin 2 → Nat :=
  let c0_6 : Index := 0#32
  let c0_i32 : BitVec 32 := 0#32
  let c1_i32 : BitVec 32 := 1#32
  let arg5 : BitVec 32 := Scf.iv c0_i32 c1_i32 k1_t1
  let c2048_i32 : BitVec 32 := 2048#32
  let v17 : BitVec 32 := Scalar.muli arg5 c2048_i32
  let v18 : BitVec 32 := v17
  let v19 : Index := Scalar.indexCast v18
  ![0, v19.toNat]
def k1_off2 (k1_t1 : Fin k1_t1_loop.trips) : Fin 2 → Nat :=
  let c0_i32 : BitVec 32 := 0#32
  let c1_i32 : BitVec 32 := 1#32
  let arg5 : BitVec 32 := Scf.iv c0_i32 c1_i32 k1_t1
  let c2048_i32 : BitVec 32 := 2048#32
  let v17 : BitVec 32 := Scalar.muli arg5 c2048_i32
  let v18 : BitVec 32 := v17
  let v22 : Index := Scalar.indexCast v18
  let c0_7 : Index := 0#32
  ![v22.toNat, 0]
def k1_mult2 (i : grid1.Coords) : BitVec 32 :=
  let arg0 : BitVec 32 := BitVec.ofNat 32 (i 0).val
  let c256_i32 : BitVec 32 := 256#32
  let v3 : BitVec 32 := Scalar.muli arg0 c256_i32
  v3
def k1_off3 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  broadcasts_S512x1_S512x256 : S512x1.Broadcasts S512x256
  inb_S512x1_S512x1_0_0 : ∀ a, (![0, 0] : Fin 2 → Nat) a + S512x1.size a ≤ S512x1.size a
  h_S512x1 : 0 < S512x1.numel
  h_S256x2048 : 0 < S256x2048.numel
  h_S2048x256 : 0 < S2048x256.numel
  shapeCasts_S2048x256_S2048x256 : S2048x256.ShapeCasts S2048x256
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S256x256_S256x256_0_0 : ∀ a, (![0, 0] : Fin 2 → Nat) a + S256x256.size a ≤ S256x256.size a
  dot_S512x512_S512x256_S512x256_1_0_0_1_n_n_wf : DotDims.WF S512x512 S512x256 S512x256 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S256x2048.size a ≤ S256x8192.size a
  k1_off2_inb : ∀ k1_t1 : Fin k1_t1_loop.trips, ∀ a, (k1_off2 k1_t1) a + S2048x256.size a ≤ S8192x256.size a
  k1_mult2_dvd : ∀ i : grid1.Coords, 256 ∣ (k1_mult2 i).toNat
  k1_off3_inb : ∀ i : grid1.Coords, ∀ a, (k1_off3 i) a + S256x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x256.size a
  hwx1_3 : ∀ i : grid1.Coords, EltTy.bits .f32 = 32 ∨ (Rect.block (s := S8192x256) S256x256.size (cc1_transform_3 i) (hinb1_3 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run with its RESULT named.  The program is two regions in a row; its run
  ends, on every device, with the result array holding what the second region's write-backs leave
  (the fold of the boundary contents through both regions) and the three argument arrays as
  launched.  The run itself is the launch over the two regions' segments; only the final read is
  stronger than the frame's: the result buffer is read off the last boundary's contents as well.
-/
import proofs.«159650_j87935160418607_2_alg».proof.Proof.Gen.KernelIdeal.Frame

set_option maxRecDepth 16384

noncomputable section

namespace Cert.GraphConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two regions terminates, nothing faulting; the result array ends at the
    contents the second region's write-backs leave, and the arguments end as launched. -/
theorem run_value : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result array's final contents are the second region's array after all its points. -/
theorem W2_result (c : Dev nD) :
    W2 m ρ c (Proc.devRef .tc main_v1) = (dat1 (V1 m ρ) c).arrAt 3 cfg1.N :=
  W2_arr m ρ c 3

/-- The second region finds the first region's two outputs at what its write-backs leave, -/
theorem V1_scaled (c : Dev nD) :
    V1 m ρ c main_v0_0 = (dat0 (V0 m ρ) c).arrAt 3 cfg0.N :=
  W1_arr m ρ c 3
theorem V1_degree (c : Dev nD) :
    V1 m ρ c main_v0_1 = (dat0 (V0 m ρ) c).arrAt 4 cfg0.N :=
  W1_arr m ρ c 4
/-- and the adjacency matrix as launched. -/
theorem V1_adjacency (c : Dev nD) :
    V1 m ρ c main_arg1 = m ((c : Thread nD τ).loc main_arg1) :=
  (W1_arr m ρ c 0).trans (((dat0 (V0 m ρ) c).arrAt_in 0 rfl _).trans (A_eq0 (V0 m ρ) c 0))

end Cert.GraphConv.KernelRun

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Region0Arith.lean ====
/-
  The first region's arithmetic at an entry.  Its body reads a block of 512 rows of the adjacency matrix,
  the same 512 rows of the features, and the whole weight matrix; it writes, per row r of the block, the
  row's degree (the sum of the row's 8192 adjacency entries) and, per column q, the projected features
  (the product of the feature row with the weight column) scaled by the reciprocal square root of the
  row's degree.
-/
import proofs.«159650_j87935160418607_2_alg».proof.Proof.Gen.KernelIdeal.Skeleton
import proofs.«159650_j87935160418607_2_alg».proof.Proof.LibRowOps
import proofs.«159650_j87935160418607_2_alg».proof.Proof.LibKeepdims
import proofs.«159650_j87935160418607_2_alg».proof.Proof.LibPlainMatmul
import Idealize.ShloMosaic.Lib.ValueIdx
import Idealize.ShloMosaic.PureOps.Ideal.Laws

noncomputable section

open scoped BigOperators

namespace Cert.GraphConv.Region0

open Cert.KernelIdeal Cert.KernelIdeal.Gen
open Idealize.ShloMosaic Idealize.ShloMosaic.ValueIdx

/-- The degree column: at row `r` the sum of the row's entries of the adjacency block. -/
theorem degree_apply (x0 : Vec Ideal S512x8192 .f32) (r : Fin 512) :
    k0_pay1 (F := Ideal) x0 (ix2 r (0 : Fin 1)) = ∑ d : Fin 8192, x0 (ix2 r d) := by
  unfold k0_pay1
  refine (Cert.Keepdims.column_cast_apply _ shapeCasts_S512_S512x1 r).trans ?_
  exact Cert.RowOps.sum_over_columns_apply x0 reduces_S512x8192_S512 (.inl rfl) rfl r

/-- The scaled projected features: at (r, q) the reciprocal square root of row `r`'s degree times the product of
    feature row `r` with weight column `q`. -/
theorem scaled_apply (x0 : Vec Ideal S512x8192 .f32) (x3 : Vec Ideal S512x512 .f32) (x5 : Vec Ideal S512x256 .f32)
    (r : Fin 512) (q : Fin 256) :
    k0_pay2 (F := Ideal) x0 x3 x5 (ix2 r q)
      = Ideal.rsqrt (∑ d : Fin 8192, x0 (ix2 r d)) * ∑ k : Fin 512, x3 (ix2 r k) * x5 (ix2 k q) := by
  unfold k0_pay2
  refine (mulf_apply _ _ _).trans ?_
  refine congrArg₂ (· * ·) ?_ ?_
  · refine (Cert.Keepdims.column_repeat_apply _ broadcasts_S512x1_S512x256 r q).trans ?_
    show Ideal.rsqrt (k0_pay1 (F := Ideal) x0 (ix2 r (0 : Fin 1))) = _
    rw [degree_apply]
  · exact Cert.PlainMatmul.zero_acc_apply dot_S512x512_S512x256_S512x256_1_0_0_1_n_n_wf none _ _ r q

end Cert.GraphConv.Region0

end
-- ==== Proof.Spec.lean ====
/-
  The graph convolution both programs compute, written once over the three argument arrays and
  naming no program.  For a feature matrix X (8192 × 512), an adjacency matrix A (8192 × 8192) and a
  weight matrix W (512 × 256), all read as extended reals:

    deg p      = Σ_j A[p, j]                       the degree of row p
    dinv p     = 1 / √(deg p)
    xw p c     = Σ_k X[p, k] · W[k, c]             the projected features
    xws p c    = dinv p · xw p c                   the projected features, scaled by their own row

  One arrangement scales the projected features first, contracts them against A, adds the row's own
  scaled features (the self loop) and scales the row afterwards (`outK`); the other builds the
  normalised matrix dinv p · (A[p, j] + [p = j]) · dinv j entry by entry and contracts it against
  the unscaled projected features (`outR`).  Both end with a clip at zero from below.
-/
import Idealize.ShloMosaic.PureOps.Ideal
import Idealize.ShloMosaic.Lib.ValueIdx

noncomputable section

namespace Cert.GraphConv

open Idealize.ShloMosaic Idealize.ShloMosaic.ValueIdx
open scoped BigOperators

/-- The shapes of the three arguments and of the result. -/
abbrev SX : Shape := ⟨2, ![8192, 512]⟩
abbrev SA : Shape := ⟨2, ![8192, 8192]⟩
abbrev SW : Shape := ⟨2, ![512, 256]⟩
abbrev SO : Shape := ⟨2, ![8192, 256]⟩

variable (X : SX.Idx → EReal) (A : SA.Idx → EReal) (W : SW.Idx → EReal)

/-- The degree of row `p`: the sum of the row's entries of `A`. -/
def deg (p : Fin 8192) : EReal := ∑ j : Fin 8192, A (ix2 p j)

/-- The reciprocal square root of the degree. -/
def dinv (p : Fin 8192) : EReal := Ideal.rsqrt (deg A p)

/-- The projected features `X · W` at row `p`, column `c`. -/
def xw (p : Fin 8192) (c : Fin 256) : EReal := ∑ k : Fin 512, X (ix2 p k) * W (ix2 k c)

/-- The projected features scaled by their own row's `dinv`. -/
def xws (p : Fin 8192) (c : Fin 256) : EReal := dinv A p * xw X W p c

/-- Scale first, contract, add the self loop, scale the row, clip at zero. -/
def outK (p : Fin 8192) (c : Fin 256) : EReal :=
  max (dinv A p * ((∑ j : Fin 8192, A (ix2 p j) * xws X A W j c) + xws X A W p c)) 0

/-- Normalise the matrix entry by entry (the self loop as an indicator), contract, clip at zero. -/
def outR (p : Fin 8192) (c : Fin 256) : EReal :=
  max (∑ j : Fin 8192, ((dinv A p * (A (ix2 p j) + if p = j then 1 else 0)) * dinv A j) * xw X W j c) 0

/-- The two arrangements as whole arrays. -/
def GK : SO.Idx → EReal := fun i => outK X A W (i 0) (i 1)
def GR : SO.Idx → EReal := fun i => outR X A W (i 0) (i 1)

theorem GK_ix2 (p : Fin 8192) (c : Fin 256) : GK X A W (ix2 p c) = outK X A W p c := rfl
theorem GR_ix2 (p : Fin 8192) (c : Fin 256) : GR X A W (ix2 p c) = outR X A W p c := rfl

end Cert.GraphConv

end
-- ==== Proof.Region0Value.lean ====
/-
  From the first region's blocks to its two output arrays.  The region walks 16 blocks of 512 rows; at block t it
  reads rows 512 t … 512 t + 511 of the adjacency matrix and of the features and the whole weight matrix, and writes
  the same rows of its two results.  A block's element sits in the array at row 512 t + (its row in the block), so
  every row of either result is written by exactly the block that holds it, and the two arrays end, for ANY contents
  the region finds its arguments at, as the scaled projected features and the degree column of those contents.
-/
import proofs.«159650_j87935160418607_2_alg».proof.Proof.Gen.KernelIdeal.Frame
import proofs.«159650_j87935160418607_2_alg».proof.Proof.Region0Arith
import proofs.«159650_j87935160418607_2_alg».proof.Proof.Spec
import Idealize.ShloMosaic.Lib.Pipeline.Value

set_option maxRecDepth 16384

noncomputable section

open scoped BigOperators

namespace Cert.GraphConv.Region0

open Cert.KernelIdeal Cert.KernelIdeal.Gen
open Idealize.ShloMosaic Idealize.ShloMosaic.TcCoe Idealize.ShloMosaic.ValueIdx Idealize.SL.Sem
open Idealize.ShloMosaic.Pipeline (Dat)

/-- The two arrays the region leaves: the scaled projected features, and the degrees as a column. -/
def scaledArr (X : SX.Idx → EReal) (A : SA.Idx → EReal) (W : SW.Idx → EReal) : SO.Idx → EReal :=
  fun i => xws X A W (i 0) (i 1)
def degreeArr (A : SA.Idx → EReal) : (⟨2, ![8192, 1]⟩ : Shape).Idx → EReal :=
  fun i => deg A (i 0)

theorem hz : (![0, 0] : Fin 2 → Nat) = fun _ => 0 := funext fun a => by fin_cases a <;> rfl

/-- Where block t of each window sits: the row-blocked windows at block row t, the weight matrix whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The scaled projected features at an entry of block `t`, from blocks that are rows 512 t … of the adjacency
    matrix and of the features, and the whole weight matrix. -/
theorem scaled_block (x0 : Vec Ideal S512x8192 .f32) (x3 : Vec Ideal S512x512 .f32) (x5 : Vec Ideal S512x256 .f32)
    (X : SX.Idx → EReal) (A : SA.Idx → EReal) (W : SW.Idx → EReal) (t : ℕ)
    (h0 : ∀ (x : S512x8192.Idx) (k : SA.Idx), (k 0).val = 512 * t + (x 0).val → (k 1).val = (x 1).val → x0 x = A k)
    (h3 : ∀ (x : S512x512.Idx) (k : SX.Idx), (k 0).val = 512 * t + (x 0).val → (k 1).val = (x 1).val → x3 x = X k)
    (h5 : ∀ (x : S512x256.Idx) (k : SW.Idx), (k 0).val = (x 0).val → (k 1).val = (x 1).val → x5 x = W k)
    (y : S512x256.Idx) (i : SO.Idx) (hi0 : (i 0).val = 512 * t + (y 0).val) (hi1 : (i 1).val = (y 1).val) :
    k0_pay2 (F := Ideal) x0 x3 x5 y = scaledArr X A W i := by
  obtain ⟨r, q, rfl⟩ : ∃ (r : Fin 512) (q : Fin 256), y = ix2 r q := ⟨y 0, y 1, eq_ix2 y⟩
  obtain ⟨p, c, rfl⟩ : ∃ (p : Fin 8192) (c : Fin 256), i = ix2 p c := ⟨i 0, i 1, eq_ix2 i⟩
  have hp : p.val = 512 * t + r.val := hi0
  have hc : c = q := Fin.ext hi1
  subst hc
  refine (scaled_apply x0 x3 x5 r c).trans ?_
  show _ = Ideal.rsqrt (∑ j : Fin 8192, A (ix2 p j)) * ∑ k : Fin 512, X (ix2 p k) * W (ix2 k c)
  refine congrArg₂ (· * ·) (congrArg Ideal.rsqrt (Finset.sum_congr rfl fun d _ => ?_)) (Finset.sum_congr rfl fun k _ => ?_)
  · exact h0 (ix2 r d) (ix2 p d) hp rfl
  · exact congrArg₂ (· * ·) (h3 (ix2 r k) (ix2 p k) hp rfl) (h5 (ix2 k c) (ix2 k c) rfl rfl)

/-- The degree at a row of block `t`. -/
theorem degree_block (x0 : Vec Ideal S512x8192 .f32) (A : SA.Idx → EReal) (t : ℕ)
    (h0 : ∀ (x : S512x8192.Idx) (k : SA.Idx), (k 0).val = 512 * t + (x 0).val → (k 1).val = (x 1).val → x0 x = A k)
    (y : S512x1.Idx) (i : (⟨2, ![8192, 1]⟩ : Shape).Idx) (hi0 : (i 0).val = 512 * t + (y 0).val) :
    k0_pay1 (F := Ideal) x0 y = degreeArr A i := by
  obtain ⟨r, z, rfl⟩ : ∃ (r : Fin 512) (z : Fin 1), y = ix2 r z := ⟨y 0, y 1, eq_ix2 y⟩
  obtain ⟨p, z', rfl⟩ : ∃ (p : Fin 8192) (z' : Fin 1), i = ix2 p z' := ⟨i 0, i 1, eq_ix2 i⟩
  have hp : p.val = 512 * t + r.val := hi0
  obtain rfl : z = 0 := Subsingleton.elim _ _
  refine (degree_apply x0 r).trans ?_
  show _ = ∑ j : Fin 8192, A (ix2 p j)
  exact Finset.sum_congr rfl fun d _ => h0 (ix2 r d) (ix2 p d) hp rfl

section Blocks

variable (V : (c : Dev nD) → (b : Ref sig .tc) → Buf (Elt Ideal) ((c : Thread nD τ).loc b))

/-- Block `t` of the adjacency matrix is its rows 512 t …, -/
theorem adjacency_block (c : Dev nD) (t : Fin cfg0.N) (x : S512x8192.Idx) (k : SA.Idx)
    (hk0 : (k 0).val = 512 * t.val + (x 0).val) (hk1 : (k 1).val = (x 1).val) :
    (iblk0 V c 0 t : Vec Ideal S512x8192 .f32) x = (V c main_arg1 : SA.Idx → EReal) k := by
  obtain ⟨e00, e01, -⟩ := block_index t
  unfold iblk0
  rw [View.read_apply]
  show V c main_arg1 _ = V c main_arg1 _
  congr 1
  funext a
  apply Fin.ext
  match a with
  | ⟨0, _⟩ => show win0_0.index t (0 : Fin 2) * 512 + 1 * (x 0).val = (k 0).val; rw [e00, hk0]; omega
  | ⟨1, _⟩ => show win0_0.index t (1 : Fin 2) * 8192 + 1 * (x 1).val = (k 1).val; rw [e01, hk1]; omega

/-- block `t` of the features is their rows 512 t …, -/
theorem features_block (c : Dev nD) (t : Fin cfg0.N) (x : S512x512.Idx) (k : SX.Idx)
    (hk0 : (k 0).val = 512 * t.val + (x 0).val) (hk1 : (k 1).val = (x 1).val) :
    (iblk0 V c 1 t : Vec Ideal S512x512 .f32) x = (V c main_arg0 : SX.Idx → EReal) k := by
  obtain ⟨-, -, e10, e11, -⟩ := block_index t
  unfold iblk0
  rw [View.read_apply]
  show V c main_arg0 _ = V c main_arg0 _
  congr 1
  funext a
  apply Fin.ext
  match a with
  | ⟨0, _⟩ => show win0_1.index t (0 : Fin 2) * 512 + 1 * (x 0).val = (k 0).val; rw [e10, hk0]; omega
  | ⟨1, _⟩ => show win0_1.index t (1 : Fin 2) * 512 + 1 * (x 1).val = (k 1).val; rw [e11, hk1]; omega

/-- and the weight window's one block is the whole weight matrix. -/
theorem weights_block (c : Dev nD) (t : Fin cfg0.N) (x : S512x256.Idx) (k : SW.Idx)
    (hk0 : (k 0).val = (x 0).val) (hk1 : (k 1).val = (x 1).val) :
    (iblk0 V c 2 t : Vec Ideal S512x256 .f32) x = (V c main_arg2 : SW.Idx → EReal) k := by
  obtain ⟨-, -, -, -, e20, e21, -⟩ := block_index t
  unfold iblk0
  rw [View.read_apply]
  show V c main_arg2 _ = V c main_arg2 _
  congr 1
  funext a
  apply Fin.ext
  match a with
  | ⟨0, _⟩ => show win0_2.index t (0 : Fin 2) * 512 + 1 * (x 0).val = (k 0).val; rw [e20, hk0]; omega
  | ⟨1, _⟩ => show win0_2.index t (1 : Fin 2) * 256 + 1 * (x 1).val = (k 1).val; rw [e21, hk1]; omega

/-- What block `t` writes back of the scaled projected features is block `t` of that array. -/
theorem scaled_flushed (c : Dev nD) (t : Fin cfg0.N) :
    (dat0 V c).flushed 3 t
      = ((cfg0.win 3).blk t).view.read (Elt Ideal) (scaledArr (V c main_arg0) (V c main_arg1) (V c main_arg2)) := by
  show (cfg0.win 3).cut (grid0.coords t) ((dat0 V c).after 3 t) = _
  rw [after0_3]
  unfold out0_3
  rw [View.canon_unit_zero hz]
  simp only [View.ld_unit_zero (S := S512x8192) hz, View.ld_unit_zero (S := S512x512) hz, View.ld_unit_zero (S := S512x256) hz]
  obtain ⟨-, -, -, -, -, -, e30, e31, -⟩ := block_index t
  funext j
  show k0_pay2 (F := Ideal) (iblk0 V c 0 t) (iblk0 V c 1 t) (iblk0 V c 2 t) j
    = scaledArr (V c main_arg0) (V c main_arg1) (V c main_arg2) (((cfg0.win 3).blk t).view.emb j)
  refine scaled_block (iblk0 V c 0 t) (iblk0 V c 1 t) (iblk0 V c 2 t) (V c main_arg0) (V c main_arg1) (V c main_arg2) t.val
    (adjacency_block V c t) (features_block V c t) (weights_block V c t) j (((cfg0.win 3).blk t).view.emb j) ?_ ?_
  · show win0_3.index t (0 : Fin 2) * 512 + 1 * (j 0).val = 512 * t.val + (j 0).val; rw [e30]; omega
  · show win0_3.index t (1 : Fin 2) * 256 + 1 * (j 1).val = (j 1).val; rw [e31]; omega

/-- What block `t` writes back of the degree column is block `t` of that column. -/
theorem degree_flushed (c : Dev nD) (t : Fin cfg0.N) :
    (dat0 V c).flushed 4 t = ((cfg0.win 4).blk t).view.read (Elt Ideal) (degreeArr (V c main_arg1)) := by
  show (cfg0.win 4).cut (grid0.coords t) ((dat0 V c).after 4 t) = _
  rw [after0_4]
  unfold out0_4
  rw [View.canon_unit_zero hz]
  simp only [View.ld_unit_zero (S := S512x8192) hz]
  obtain ⟨-, -, -, -, -, -, -, -, e40, e41⟩ := block_index t
  funext j
  show k0_pay1 (F := Ideal) (iblk0 V c 0 t) j = degreeArr (V c main_arg1) (((cfg0.win 4).blk t).view.emb j)
  refine degree_block (iblk0 V c 0 t) (V c main_arg1) t.val (adjacency_block V c t) j (((cfg0.win 4).blk t).view.emb j) ?_
  show win0_4.index t (0 : Fin 2) * 512 + 1 * (j 0).val = 512 * t.val + (j 0).val; rw [e40]; omega

end Blocks

end Cert.GraphConv.Region0

end
-- ==== Proof.Region0Array.lean ====
/-
  The first region's two output arrays after all sixteen blocks.  Row p of either result lies in block p / 512 and in
  no other, every block is written back, and each block written back is the matching block of one whole-array function;
  so the arrays end as that function: the scaled projected features, and the degree column.
-/
import proofs.«159650_j87935160418607_2_alg».proof.Proof.Region0Value

set_option maxRecDepth 16384

noncomputable section

namespace Cert.GraphConv.Region0

open Cert.KernelIdeal Cert.KernelIdeal.Gen
open Idealize.ShloMosaic Idealize.ShloMosaic.TcCoe Idealize.ShloMosaic.ValueIdx Idealize.SL.Sem
open Idealize.ShloMosaic.Pipeline (Dat)

/-- An entry of the scaled features is in block `t` iff each coordinate is in the block's range on its axis. -/
theorem scaled_mem_blk (t : Fin cfg0.N) (i : S8192x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v0_0).slice (win0_3.rect t)).set ↔ _
  rw [View.set_slice_whole, Rect.mem_set_unit]
  exact Iff.rfl

/-- The same for the degree column. -/
theorem degree_mem_blk (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v0_1).slice (win0_4.rect t)).set ↔ _
  rw [View.set_slice_whole, Rect.mem_set_unit]
  exact Iff.rfl

/-- Row `n` below 8192 lies in block `n / 512` of the sixteen. -/
theorem block_of_row (n : ℕ) (hn : n < 8192) : ∃ t : Fin cfg0.N, t.val = n / 512 :=
  ⟨⟨n / 512, by show n / 512 < grid0.N; rw [N_0]; omega⟩, rfl⟩

section Arrays

variable (V : (c : Dev nD) → (b : Ref sig .tc) → Buf (Elt Ideal) ((c : Thread nD τ).loc b))

/-- The scaled projected features after the region, as one function of the contents the region found. -/
theorem scaled_final (c : Dev nD) :
    (dat0 V c).arrAt 3 cfg0.N = scaledArr (V c main_arg0) (V c main_arg1) (V c main_arg2) :=
  (dat0 V c).arrAt_eq_of_cover 3 (scaledArr (V c main_arg0) (V c main_arg1) (V c main_arg2))
    (fun t _ => scaled_flushed V c t) fun i => by
      have h0 : (i 0 : Nat) < 8192 := (i 0).isLt
      have h1 : (i 1 : Nat) < 256 := (i 1).isLt
      obtain ⟨t, ht⟩ := block_of_row (i 0 : Nat) h0
      obtain ⟨-, -, -, -, -, -, e30, e31, -⟩ := block_index t
      refine ⟨t, flush0_3 t, ?_⟩
      rw [scaled_mem_blk]
      intro a
      match a with
      | ⟨0, _⟩ =>
        show win0_3.index t (0 : Fin 2) * 512 ≤ (i 0 : Nat) ∧ (i 0 : Nat) < win0_3.index t (0 : Fin 2) * 512 + 512
        rw [e30, ht]; omega
      | ⟨1, _⟩ =>
        show win0_3.index t (1 : Fin 2) * 256 ≤ (i 1 : Nat) ∧ (i 1 : Nat) < win0_3.index t (1 : Fin 2) * 256 + 256
        rw [e31]; omega

/-- The degree column after the region. -/
theorem degree_final (c : Dev nD) :
    (dat0 V c).arrAt 4 cfg0.N = degreeArr (V c main_arg1) :=
  (dat0 V c).arrAt_eq_of_cover 4 (degreeArr (V c main_arg1))
    (fun t _ => degree_flushed V c t) fun i => by
      have h0 : (i 0 : Nat) < 8192 := (i 0).isLt
      have h1 : (i 1 : Nat) < 1 := (i 1).isLt
      obtain ⟨t, ht⟩ := block_of_row (i 0 : Nat) h0
      obtain ⟨-, -, -, -, -, -, -, -, e40, e41⟩ := block_index t
      refine ⟨t, flush0_4 t, ?_⟩
      rw [degree_mem_blk]
      intro a
      match a with
      | ⟨0, _⟩ =>
        show win0_4.index t (0 : Fin 2) * 512 ≤ (i 0 : Nat) ∧ (i 0 : Nat) < win0_4.index t (0 : Fin 2) * 512 + 512
        rw [e40, ht]; omega
      | ⟨1, _⟩ =>
        show win0_4.index t (1 : Fin 2) * 1 ≤ (i 1 : Nat) ∧ (i 1 : Nat) < win0_4.index t (1 : Fin 2) * 1 + 1
        rw [e41]; omega

end Arrays

end Cert.GraphConv.Region0

end
-- ==== Proof.Region1Arith.lean ====
/-
  The second region's arithmetic at an entry.  Its body walks the 8192 columns of its adjacency block in four
  chunks of 2048, each trip adding to a running 256 × 256 sum the product of the chunk's columns with the matching
  2048 rows of the scaled projected features; after the loop it adds the block's own rows of the scaled features
  (the self loop), scales row r by the reciprocal square root of the row's degree, and clips at zero.
-/
import proofs.«159650_j87935160418607_2_alg».proof.Proof.Gen.KernelIdeal.Skeleton
import proofs.«159650_j87935160418607_2_alg».proof.Proof.LibKeepdims
import proofs.«159650_j87935160418607_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.GraphConv.Region1

open Cert.KernelIdeal Cert.KernelIdeal.Gen
open Idealize.ShloMosaic Idealize.ShloMosaic.ValueIdx

/-- The running sum starts at zero. -/
theorem start_apply (y : S256x256.Idx) : k1_pay1 (F := Ideal) y = 0 := by
  unfold k1_pay1
  show Ideal.ofBits .f32 0x00000000#32 = 0
  exact Ideal.ofBits_zero_f32

/-- One trip adds, at (r, q), the product of row `r` of the chunk of columns with column `q` of the chunk of rows. -/
theorem trip_apply (acc : FVec Ideal S256x256 .f32) (v20 : Vec Ideal S256x2048 .f32) (v23 : Vec Ideal S2048x256 .f32)
    (r q : Fin 256) :
    k1_pay2 (F := Ideal) acc v20 v23 (ix2 r q) = acc (ix2 r q) + ∑ d : Fin 2048, v20 (ix2 r d) * v23 (ix2 d q) := by
  unfold k1_pay2
  refine (addf_apply _ _ _).trans (congrArg (acc (ix2 r q) + ·) ?_)
  refine (Cert.PlainMatmul.zero_acc_apply dot_S256x2048_S2048x256_S256x256_1_0_0_1_n_n_wf none _ _ r q).trans ?_
  refine Finset.sum_congr rfl fun d _ => ?_
  show v20 (ix2 r d) * shapeCast S2048x256 v23 shapeCasts_S2048x256_S2048x256 (ix2 d q) = _
  rw [shapeCast_self]

/-- After the loop: add the self loop, scale the row, clip at zero. -/
theorem finish_apply (v2 : FVec Ideal S256x256 .f32) (v6 : Vec Ideal S256x256 .f32) (v8 : Vec Ideal S256x1 .f32)
    (r q : Fin 256) :
    k1_pay3 (F := Ideal) v2 v6 v8 (ix2 r q)
      = max (Ideal.rsqrt (v8 (ix2 r (0 : Fin 1))) * (v2 (ix2 r q) + v6 (ix2 r q))) 0 := by
  unfold k1_pay3
  refine (maximumf_apply _ _ _).trans ?_
  refine congrArg₂ max ?_ ?_
  · refine (mulf_apply _ _ _).trans (congrArg₂ (· * ·) ?_ ?_)
    · refine (Cert.Keepdims.column_repeat_apply _ broadcasts_S256x1_S256x256 r q).trans ?_
      show Ideal.rsqrt (shapeCast S256x1 v8 shapeCasts_S256x1_S256x1 (ix2 r (0 : Fin 1))) = _
      rw [shapeCast_self]
    · refine (addf_apply _ _ _).trans ?_
      show v2 (ix2 r q) + shapeCast S256x256 v6 shapeCasts_S256x256_S256x256 (ix2 r q) = _
      rw [shapeCast_self]
  · show Ideal.ofBits .f32 0x00000000#32 = 0
    exact Ideal.ofBits_zero_f32

end Cert.GraphConv.Region1

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Region1Loop.lean ====
/-
  The second region's body, read as a value.  The loop's four trips each add one chunk's product to the running sum,
  so after the loop the running sum at (r, q) is the whole contraction over the block's 8192 columns: four sums of
  2048 consecutive terms are one sum of 8192.  What the body stores is then, at (r, q), that contraction plus the
  block's own row of the scaled features, scaled by the reciprocal square root of the row's degree, clipped at zero.
-/
import proofs.«159650_j87935160418607_2_alg».proof.Proof.Gen.KernelIdeal.Frame
import proofs.«159650_j87935160418607_2_alg».proof.Proof.Region1Arith
import proofs.«159650_j87935160418607_2_alg».proof.Proof.LibSumBlocks
import Idealize.ShloMosaic.Lib.Pipeline.Value

set_option maxRecDepth 16384

noncomputable section

open scoped BigOperators

namespace Cert.GraphConv.Region1

open Cert.KernelIdeal Cert.KernelIdeal.Gen
open Idealize.ShloMosaic Idealize.ShloMosaic.TcCoe Idealize.ShloMosaic.Tactic Idealize.ShloMosaic.ValueIdx Idealize.SL.Sem

theorem hz : (![0, 0] : Fin 2 → Nat) = fun _ => 0 := funext fun a => by fin_cases a <;> rfl

/-- The loop makes four trips. -/
theorem trips_eq : k1_t1_loop.trips = 4 := by decide

/-- Offset `d` of chunk `k` is column (or row) `2048 k + d`, below 8192. -/
theorem chunk_lt (k : Fin 4) (d : Fin 2048) : k.val * 2048 + d.val < 8192 := by
  have := k.isLt; have := d.isLt; omega

/-- One chunk's share of the contraction at (r, q). -/
def chunkTerm (x0 : Vec Ideal S256x8192 .f32) (x1 : Vec Ideal S8192x256 .f32) (r q : Fin 256) (k : Fin 4) : EReal :=
  ∑ d : Fin 2048, x0 (ix2 r ⟨k.val * 2048 + d.val, chunk_lt k d⟩) * x1 (ix2 ⟨k.val * 2048 + d.val, chunk_lt k d⟩ q)

/-- Trip `k` loads columns 2048 k … of the adjacency block -/
theorem cols_idx (k : Fin k1_t1_loop.trips) (r : Fin 256) (d : Fin 2048) (j : Fin 8192) (hj : j.val = 2048 * k.val + d.val) :
    (Rect.unit (s := S256x8192) (k1_off1 k) S256x2048.size (k1_off1_inb k)).idx (ix2 r d) = ix2 r j := by
  have e := k1_off1_eq k
  funext a
  apply Fin.ext
  match a with
  | ⟨0, _⟩ => show k1_off1 k (0 : Fin 2) + 1 * r.val = r.val; rw [e]; show 0 + 1 * r.val = r.val; omega
  | ⟨1, _⟩ => show k1_off1 k (1 : Fin 2) + 1 * d.val = j.val; rw [e, hj]; show 2048 * k.val + 1 * d.val = _; omega

/-- and rows 2048 k … of the scaled features. -/
theorem rows_idx (k : Fin k1_t1_loop.trips) (d : Fin 2048) (q : Fin 256) (j : Fin 8192) (hj : j.val = 2048 * k.val + d.val) :
    (Rect.unit (s := S8192x256) (k1_off2 k) S2048x256.size (k1_off2_inb k)).idx (ix2 d q) = ix2 j q := by
  have e := k1_off2_eq k
  funext a
  apply Fin.ext
  match a with
  | ⟨0, _⟩ => show k1_off2 k (0 : Fin 2) + 1 * d.val = j.val; rw [e, hj]; show 2048 * k.val + 1 * d.val = _; omega
  | ⟨1, _⟩ => show k1_off2 k (1 : Fin 2) + 1 * q.val = q.val; rw [e]; show 0 + 1 * q.val = q.val; omega

/-- After the loop the body loads the block's own rows 256 i … of the scaled features. -/
theorem own_idx (i : grid1.Coords) (r q : Fin 256) (p : Fin 8192) (hp : p.val = 256 * (i 0).val + r.val) :
    (Rect.unit (s := S8192x256) (k1_off3 i) S256x256.size (k1_off3_inb i)).idx (ix2 r q) = ix2 p q := by
  have e := k1_off3_eq i
  funext a
  apply Fin.ext
  match a with
  | ⟨0, _⟩ => show k1_off3 i (0 : Fin 2) + 1 * r.val = p.val; rw [e, hp]; show 256 * (i 0).val + 1 * r.val = _; omega
  | ⟨1, _⟩ => show k1_off3 i (1 : Fin 2) + 1 * q.val = q.val; rw [e]; show 0 + 1 * q.val = q.val; omega

section Body

variable (c : Dev nD) (i : grid1.Coords)
  (arg1 : Memref sig .tc .vmem S256x8192 .f32) (harg1 : arg1.IsWhole)
  (arg2 : Memref sig .tc .vmem S8192x256 .f32) (harg2 : arg2.IsWhole)
  (arg3 : Memref sig .tc .vmem S256x1 .f32) (harg3 : arg3.IsWhole)
  (arg4 : Memref sig .tc .vmem S256x256 .f32) (harg4 : arg4.IsWhole)
  (x0 : Vec Ideal S256x8192 .f32) (x1 : Vec Ideal S8192x256 .f32) (x2 : Vec Ideal S256x1 .f32)

/-- The running sum before trip `n`, from zero, over the block's contents. -/
abbrev runningSum (n : ℕ) : FVec Ideal S256x256 .f32 :=
  st_k1_t1 (F := Ideal) Variants.none c none i arg1 harg1 arg2 harg2 arg3 harg3 arg4 harg4 (harg1.unread x0) (harg2.unread x1)
    (k1_pay1 (F := Ideal)) n

/-- One trip's result is the trip's arithmetic on the two chunks it loads. -/
theorem trip_eq (k : Fin k1_t1_loop.trips) (acc : FVec Ideal S256x256 .f32) :
    tripR_k1_t1 (F := Ideal) Variants.none c none i arg1 harg1 arg2 harg2 arg3 harg3 arg4 harg4 (harg1.unread x0) (harg2.unread x1) k acc
      = k1_pay2 (F := Ideal) acc
          (View.ld x0 (Rect.unit (s := S256x8192) (k1_off1 k) S256x2048.size (k1_off1_inb k)))
          (View.ld x1 (Rect.unit (s := S8192x256) (k1_off2 k) S2048x256.size (k1_off2_inb k))) := by
  unfold tripR_k1_t1 trip_k1_t1
  dsimp only
  simp only [View.readAt_eq_ld, harg1.read_unread, harg2.read_unread]

/-- At (r, q), trip `k` adds chunk `k`'s share of the contraction. -/
theorem trip_value (k : Fin k1_t1_loop.trips) (kk : Fin 4) (hk : k.val = kk.val) (acc : FVec Ideal S256x256 .f32) (r q : Fin 256) :
    tripR_k1_t1 (F := Ideal) Variants.none c none i arg1 harg1 arg2 harg2 arg3 harg3 arg4 harg4 (harg1.unread x0) (harg2.unread x1) k acc (ix2 r q)
      = acc (ix2 r q) + chunkTerm x0 x1 r q kk := by
  rw [trip_eq]
  refine (trip_apply acc _ _ r q).trans (congrArg (acc (ix2 r q) + ·) (Finset.sum_congr rfl fun d _ => ?_))
  show x0 ((Rect.unit (s := S256x8192) (k1_off1 k) S256x2048.size (k1_off1_inb k)).idx (ix2 r d))
      * x1 ((Rect.unit (s := S8192x256) (k1_off2 k) S2048x256.size (k1_off2_inb k)).idx (ix2 d q)) = _
  rw [cols_idx k r d ⟨kk.val * 2048 + d.val, chunk_lt kk d⟩ (by show kk.val * 2048 + d.val = _; rw [hk]; omega),
    rows_idx k d q ⟨kk.val * 2048 + d.val, chunk_lt kk d⟩ (by show kk.val * 2048 + d.val = _; rw [hk]; omega)]

/-- The running sum after trip `n` is the one before it plus chunk `n`'s share. -/
theorem running_succ (n : ℕ) (hn : n < k1_t1_loop.trips) (kk : Fin 4) (hk : n = kk.val) (r q : Fin 256) :
    runningSum c i arg1 harg1 arg2 harg2 arg3 harg3 arg4 harg4 x0 x1 (n + 1) (ix2 r q)
      = runningSum c i arg1 harg1 arg2 harg2 arg3 harg3 arg4 harg4 x0 x1 n (ix2 r q) + chunkTerm x0 x1 r q kk :=
  (congrFun (st_k1_t1_succ (F := Ideal) Variants.none c none i arg1 harg1 arg2 harg2 arg3 harg3 arg4 harg4 (harg1.unread x0) (harg2.unread x1)
      (k1_pay1 (F := Ideal)) ⟨n, hn⟩) (ix2 r q)).trans
    (trip_value c i arg1 harg1 arg2 harg2 arg3 harg3 arg4 harg4 x0 x1 ⟨n, hn⟩ kk hk _ r q)

/-- After the four trips the running sum is the contraction over all 8192 columns. -/
theorem contraction (r q : Fin 256) :
    runningSum c i arg1 harg1 arg2 harg2 arg3 harg3 arg4 harg4 x0 x1 4 (ix2 r q) = ∑ j : Fin 8192, x0 (ix2 r j) * x1 (ix2 j q) := by
  have h3 : 3 < k1_t1_loop.trips := by rw [trips_eq]; decide
  have h2 : 2 < k1_t1_loop.trips := by rw [trips_eq]; decide
  have h1 : 1 < k1_t1_loop.trips := by rw [trips_eq]; decide
  have h0 : 0 < k1_t1_loop.trips := by rw [trips_eq]; decide
  have s4 := running_succ c i arg1 harg1 arg2 harg2 arg3 harg3 arg4 harg4 x0 x1 3 h3 3 rfl r q
  have s3 := running_succ c i arg1 harg1 arg2 harg2 arg3 harg3 arg4 harg4 x0 x1 2 h2 2 rfl r q
  have s2 := running_succ c i arg1 harg1 arg2 harg2 arg3 harg3 arg4 harg4 x0 x1 1 h1 1 rfl r q
  have s1 := running_succ c i arg1 harg1 arg2 harg2 arg3 harg3 arg4 harg4 x0 x1 0 h0 0 rfl r q
  have s0 : runningSum c i arg1 harg1 arg2 harg2 arg3 harg3 arg4 harg4 x0 x1 0 (ix2 r q) = 0 := start_apply _
  refine s4.trans ?_
  rw [s3, s2, s1, s0, zero_add, Cert.SumBlocks.sum_blocks 4 2048 8192 rfl (fun j => x0 (ix2 r j) * x1 (ix2 j q)), Fin.sum_univ_four]
  rfl

end Body

end Cert.GraphConv.Region1

end
-- ==== Proof.Region1Body.lean ====
/-
  What the second region's body stores, at an entry.  The body's one store holds the finishing arithmetic applied to
  the running sum after the loop, the block's own rows of the scaled features, and the block's rows of the degree
  column; at (r, q) that is the contraction of row r of the adjacency block with column q of the scaled features, plus
  the scaled features at the block's row r (row 256 i + r of the array), scaled by the reciprocal square root of the
  row's degree and clipped at zero.
-/
import proofs.«159650_j87935160418607_2_alg».proof.Proof.Region1Loop

set_option maxRecDepth 16384

noncomputable section

open scoped BigOperators

namespace Cert.GraphConv.Region1

open Cert.KernelIdeal Cert.KernelIdeal.Gen
open Idealize.ShloMosaic Idealize.ShloMosaic.TcCoe Idealize.ShloMosaic.Tactic Idealize.ShloMosaic.ValueIdx Idealize.SL.Sem

section Body

variable (c : Dev nD) (i : grid1.Coords)
  (arg1 : Memref sig .tc .vmem S256x8192 .f32) (harg1 : arg1.IsWhole)
  (arg2 : Memref sig .tc .vmem S8192x256 .f32) (harg2 : arg2.IsWhole)
  (arg3 : Memref sig .tc .vmem S256x1 .f32) (harg3 : arg3.IsWhole)
  (arg4 : Memref sig .tc .vmem S256x256 .f32) (harg4 : arg4.IsWhole)
  (x0 : Vec Ideal S256x8192 .f32) (x1 : Vec Ideal S8192x256 .f32) (x2 : Vec Ideal S256x1 .f32)

/-- The body's one store, as the finishing arithmetic on the running sum after the four trips. -/
theorem body_eq :
    out1_A_3 (F := Ideal) c i arg1 harg1 arg2 harg2 arg3 harg3 arg4 harg4 x0 x1 x2
      = k1_pay3 (F := Ideal) (runningSum c i arg1 harg1 arg2 harg2 arg3 harg3 arg4 harg4 x0 x1 4)
          (View.ld x1 (Rect.unit (s := S8192x256) (k1_off3 i) S256x256.size (k1_off3_inb i))) x2 := by
  unfold out1_A_3
  rw [View.read_writes_eq_canon _ _ _ (cover1_A_3 c i arg1 harg1 arg2 harg2 arg3 harg3 arg4 harg4 x0 x1 x2)]
  unfold kernelRun1_A
  dsimp only
  rw [View.canon_unit_zero hz]
  simp only [View.readAt_eq_ld, harg2.read_unread, harg3.read_unread, View.ld_unit_zero (S := S256x1) hz]
  rfl

/-- The stored value at (r, q); `p` is the array row the block's row `r` is. -/
theorem body_apply (r q : Fin 256) (p : Fin 8192) (hp : p.val = 256 * (i 0).val + r.val) :
    out1_A_3 (F := Ideal) c i arg1 harg1 arg2 harg2 arg3 harg3 arg4 harg4 x0 x1 x2 (ix2 r q)
      = max (Ideal.rsqrt (x2 (ix2 r (0 : Fin 1))) * ((∑ j : Fin 8192, x0 (ix2 r j) * x1 (ix2 j q)) + x1 (ix2 p q))) 0 := by
  rw [body_eq]
  refine (finish_apply _ _ _ r q).trans ?_
  rw [contraction]
  show max (_ * (_ + x1 ((Rect.unit (s := S8192x256) (k1_off3 i) S256x256.size (k1_off3_inb i)).idx (ix2 r q)))) 0 = _
  rw [own_idx i r q p hp]

end Body

end Cert.GraphConv.Region1

end
-- ==== Proof.Region1Value.lean ====
/-
  From the second region's blocks to the result array.  The region walks 32 blocks of 256 rows; at block t it reads
  rows 256 t … of the adjacency matrix and of the degree column and the whole array of scaled features, and writes the
  same rows of the result.  Each row of the result is written by exactly the block that holds it, so for ANY contents
  A, Y, D the region finds the adjacency matrix, the scaled features and the degree column at, the result ends as
    max (rsqrt (D p) · (Σ_j A[p, j] · Y[j, c] + Y[p, c])) 0   at (p, c).
-/
import proofs.«159650_j87935160418607_2_alg».proof.Proof.Region1Body
import proofs.«159650_j87935160418607_2_alg».proof.Proof.Spec

set_option maxRecDepth 16384

noncomputable section

open scoped BigOperators

namespace Cert.GraphConv.Region1

open Cert.KernelIdeal Cert.KernelIdeal.Gen
open Idealize.ShloMosaic Idealize.ShloMosaic.TcCoe Idealize.ShloMosaic.ValueIdx Idealize.SL.Sem
open Idealize.ShloMosaic.Pipeline (Dat)

/-- The result as one function of the three arrays the region reads. -/
def convArr (A : SA.Idx → EReal) (Y : SO.Idx → EReal) (D : (⟨2, ![8192, 1]⟩ : Shape).Idx → EReal) : SO.Idx → EReal :=
  fun i => max (Ideal.rsqrt (D (ix2 (i 0) (0 : Fin 1))) * ((∑ j : Fin 8192, A (ix2 (i 0) j) * Y (ix2 j (i 1))) + Y (ix2 (i 0) (i 1)))) 0

/-- Where block t of each window sits, and that point t's grid coordinate is t. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ ((grid1.coords t) 0).val = t.val :=
  (by decide +kernel : ∀ t : Fin grid1.N, _)

/-- The stored block at an entry, from blocks that are rows 256 t … of the adjacency matrix and of the degree column
    and the whole array of scaled features. -/
theorem conv_block (c : Dev nD) (i : grid1.Coords)
    (arg1 : Memref sig .tc .vmem S256x8192 .f32) (harg1 : arg1.IsWhole)
    (arg2 : Memref sig .tc .vmem S8192x256 .f32) (harg2 : arg2.IsWhole)
    (arg3 : Memref sig .tc .vmem S256x1 .f32) (harg3 : arg3.IsWhole)
    (arg4 : Memref sig .tc .vmem S256x256 .f32) (harg4 : arg4.IsWhole)
    (x0 : Vec Ideal S256x8192 .f32) (x1 : Vec Ideal S8192x256 .f32) (x2 : Vec Ideal S256x1 .f32)
    (A : SA.Idx → EReal) (Y : SO.Idx → EReal) (D : (⟨2, ![8192, 1]⟩ : Shape).Idx → EReal) (t : ℕ) (hi : (i 0).val = t)
    (h0 : ∀ (x : S256x8192.Idx) (k : SA.Idx), (k 0).val = 256 * t + (x 0).val → (k 1).val = (x 1).val → x0 x = A k)
    (h1 : ∀ (x : S8192x256.Idx) (k : SO.Idx), (k 0).val = (x 0).val → (k 1).val = (x 1).val → x1 x = Y k)
    (h2 : ∀ (x : S256x1.Idx) (k : (⟨2, ![8192, 1]⟩ : Shape).Idx), (k 0).val = 256 * t + (x 0).val → x2 x = D k)
    (y : S256x256.Idx) (j : SO.Idx) (hj0 : (j 0).val = 256 * t + (y 0).val) (hj1 : (j 1).val = (y 1).val) :
    out1_A_3 (F := Ideal) c i arg1 harg1 arg2 harg2 arg3 harg3 arg4 harg4 x0 x1 x2 y = convArr A Y D j := by
  obtain ⟨r, q, rfl⟩ : ∃ (r : Fin 256) (q : Fin 256), y = ix2 r q := ⟨y 0, y 1, eq_ix2 y⟩
  obtain ⟨p, cc, rfl⟩ : ∃ (p : Fin 8192) (cc : Fin 256), j = ix2 p cc := ⟨j 0, j 1, eq_ix2 j⟩
  have hp : p.val = 256 * t + r.val := hj0
  have hc : cc = q := Fin.ext hj1
  subst hc
  refine (body_apply c i arg1 harg1 arg2 harg2 arg3 harg3 arg4 harg4 x0 x1 x2 r cc p (by rw [hi]; exact hp)).trans ?_
  show _ = max (Ideal.rsqrt (D (ix2 p (0 : Fin 1))) * ((∑ j : Fin 8192, A (ix2 p j) * Y (ix2 j cc)) + Y (ix2 p cc))) 0
  refine congrArg (max · 0) (congrArg₂ (· * ·) (congrArg Ideal.rsqrt ?_) (congrArg₂ (· + ·) (Finset.sum_congr rfl fun d _ => ?_) ?_))
  · exact h2 (ix2 r (0 : Fin 1)) (ix2 p (0 : Fin 1)) hp
  · exact congrArg₂ (· * ·) (h0 (ix2 r d) (ix2 p d) hp rfl) (h1 (ix2 d cc) (ix2 d cc) rfl rfl)
  · exact h1 (ix2 p cc) (ix2 p cc) rfl rfl

section Blocks

variable (V : (c : Dev nD) → (b : Ref sig .tc) → Buf (Elt Ideal) ((c : Thread nD τ).loc b))

/-- Block `t` of the adjacency matrix is its rows 256 t …, -/
theorem adjacency_block (c : Dev nD) (t : Fin cfg1.N) (x : S256x8192.Idx) (k : SA.Idx)
    (hk0 : (k 0).val = 256 * t.val + (x 0).val) (hk1 : (k 1).val = (x 1).val) :
    (iblk1 V c 0 t : Vec Ideal S256x8192 .f32) x = (V c main_arg1 : SA.Idx → EReal) k := by
  obtain ⟨e00, e01, -⟩ := block_index t
  unfold iblk1
  rw [View.read_apply]
  show V c main_arg1 _ = V c main_arg1 _
  congr 1
  funext a
  apply Fin.ext
  match a with
  | ⟨0, _⟩ => show win1_0.index t (0 : Fin 2) * 256 + 1 * (x 0).val = (k 0).val; rw [e00, hk0]; omega
  | ⟨1, _⟩ => show win1_0.index t (1 : Fin 2) * 8192 + 1 * (x 1).val = (k 1).val; rw [e01, hk1]; omega

/-- the scaled features' one block is the whole array, -/
theorem scaled_whole (c : Dev nD) (t : Fin cfg1.N) (x : S8192x256.Idx) (k : SO.Idx)
    (hk0 : (k 0).val = (x 0).val) (hk1 : (k 1).val = (x 1).val) :
    (iblk1 V c 1 t : Vec Ideal S8192x256 .f32) x = (V c main_v0_0 : SO.Idx → EReal) k := by
  obtain ⟨-, -, e10, e11, -⟩ := block_index t
  unfold iblk1
  rw [View.read_apply]
  show V c main_v0_0 _ = V c main_v0_0 _
  congr 1
  funext a
  apply Fin.ext
  match a with
  | ⟨0, _⟩ => show win1_1.index t (0 : Fin 2) * 8192 + 1 * (x 0).val = (k 0).val; rw [e10, hk0]; omega
  | ⟨1, _⟩ => show win1_1.index t (1 : Fin 2) * 256 + 1 * (x 1).val = (k 1).val; rw [e11, hk1]; omega

/-- and block `t` of the degree column is its rows 256 t …. -/
theorem degree_block (c : Dev nD) (t : Fin cfg1.N) (x : S256x1.Idx) (k : (⟨2, ![8192, 1]⟩ : Shape).Idx)
    (hk0 : (k 0).val = 256 * t.val + (x 0).val) :
    (iblk1 V c 2 t : Vec Ideal S256x1 .f32) x = (V c main_v0_1 : (⟨2, ![8192, 1]⟩ : Shape).Idx → EReal) k := by
  obtain ⟨-, -, -, -, e20, e21, -⟩ := block_index t
  unfold iblk1
  rw [View.read_apply]
  show V c main_v0_1 _ = V c main_v0_1 _
  congr 1
  funext a
  apply Fin.ext
  match a with
  | ⟨0, _⟩ => show win1_2.index t (0 : Fin 2) * 256 + 1 * (x 0).val = (k 0).val; rw [e20, hk0]; omega
  | ⟨1, _⟩ =>
    show win1_2.index t (1 : Fin 2) * 1 + 1 * (x 1).val = (k 1).val
    have hx : (x 1).val < 1 := (x 1).isLt
    have hk : (k 1).val < 1 := (k 1).isLt
    rw [e21]; omega

/-- What block `t` writes back is block `t` of the result as that one function. -/
theorem conv_flushed (c : Dev nD) (t : Fin cfg1.N) :
    (dat1 V c).flushed 3 t
      = ((cfg1.win 3).blk t).view.read (Elt Ideal) (convArr (V c main_arg1) (V c main_v0_0) (V c main_v0_1)) := by
  show (cfg1.win 3).cut (grid1.coords t) ((dat1 V c).after 3 t) = _
  rw [after1_3]
  unfold outsAt1
  obtain ⟨-, -, -, -, -, -, e30, e31, ec⟩ := block_index t
  funext j
  show out1_A_3 (F := Ideal) c (grid1.coords t) (ms1_0 t) (hs1_0 t) (ms1_1 t) (hs1_1 t) (ms1_2 t) (hs1_2 t) (ms1_3 t) (hs1_3 t)
      (iblk1 V c 0 t) (iblk1 V c 1 t) (iblk1 V c 2 t) j
    = convArr (V c main_arg1) (V c main_v0_0) (V c main_v0_1) (((cfg1.win 3).blk t).view.emb j)
  refine conv_block c (grid1.coords t) (ms1_0 t) (hs1_0 t) (ms1_1 t) (hs1_1 t) (ms1_2 t) (hs1_2 t) (ms1_3 t) (hs1_3 t)
    (iblk1 V c 0 t) (iblk1 V c 1 t) (iblk1 V c 2 t) (V c main_arg1) (V c main_v0_0) (V c main_v0_1) t.val ec
    (adjacency_block V c t) (scaled_whole V c t) (degree_block V c t) j (((cfg1.win 3).blk t).view.emb j) ?_ ?_
  · show win1_3.index t (0 : Fin 2) * 256 + 1 * (j 0).val = 256 * t.val + (j 0).val; rw [e30]; omega
  · show win1_3.index t (1 : Fin 2) * 256 + 1 * (j 1).val = (j 1).val; rw [e31]; omega

/-- An entry of the result is in block `t` iff each coordinate is in the block's range on its axis. -/
theorem conv_mem_blk (t : Fin cfg1.N) (i : S8192x256.Idx) :
    i ∈ ((cfg1.win 3).blk t).view.set ↔ ∀ a : Fin 2, win1_3.index t a * S256x256.size a ≤ (i a).val
      ∧ (i a).val < win1_3.index t a * S256x256.size a + S256x256.size a := by
  show i ∈ ((View.whole main_v1).slice (win1_3.rect t)).set ↔ _
  rw [View.set_slice_whole, Rect.mem_set_unit]
  exact Iff.rfl

/-- Row `n` below 8192 lies in block `n / 256` of the thirty-two. -/
theorem block_of_row (n : ℕ) (hn : n < 8192) : ∃ t : Fin cfg1.N, t.val = n / 256 :=
  ⟨⟨n / 256, by show n / 256 < grid1.N; rw [N_1]; omega⟩, rfl⟩

/-- The result array after the region, as one function of the contents the region found. -/
theorem conv_final (c : Dev nD) :
    (dat1 V c).arrAt 3 cfg1.N = convArr (V c main_arg1) (V c main_v0_0) (V c main_v0_1) :=
  (dat1 V c).arrAt_eq_of_cover 3 (convArr (V c main_arg1) (V c main_v0_0) (V c main_v0_1))
    (fun t _ => conv_flushed V c t) fun i => by
      have h0 : (i 0 : Nat) < 8192 := (i 0).isLt
      have h1 : (i 1 : Nat) < 256 := (i 1).isLt
      obtain ⟨t, ht⟩ := block_of_row (i 0 : Nat) h0
      obtain ⟨-, -, -, -, -, -, e30, e31, -⟩ := block_index t
      refine ⟨t, flush1_3 t, ?_⟩
      rw [conv_mem_blk]
      intro a
      match a with
      | ⟨0, _⟩ =>
        show win1_3.index t (0 : Fin 2) * 256 ≤ (i 0 : Nat) ∧ (i 0 : Nat) < win1_3.index t (0 : Fin 2) * 256 + 256
        rw [e30, ht]; omega
      | ⟨1, _⟩ =>
        show win1_3.index t (1 : Fin 2) * 256 ≤ (i 1 : Nat) ∧ (i 1 : Nat) < win1_3.index t (1 : Fin 2) * 256 + 256
        rw [e31]; omega

end Blocks

end Cert.GraphConv.Region1

end
-- ==== Proof.KernelValue.lean ====
/-
  The idealized kernel's result as one function of its arguments.  The second region's result is, by its own value,
  a function of the adjacency matrix, the first region's scaled features and the first region's degree column; the
  first region's two outputs are, by its value, the scaled projected features and the degrees of the launch contents;
  composing the two gives the scale-first arrangement of the graph convolution, `GK`, entry by entry by definition.
-/
import proofs.«159650_j87935160418607_2_alg».proof.Proof.KernelRun
import proofs.«159650_j87935160418607_2_alg».proof.Proof.Region0Array
import proofs.«159650_j87935160418607_2_alg».proof.Proof.Region1Value
import proofs.«159650_j87935160418607_2_alg».proof.Proof.Spec

set_option maxRecDepth 16384

noncomputable section

namespace Cert.GraphConv.KernelRun

open Cert.KernelIdeal Cert.KernelIdeal.Gen
open Idealize.ShloMosaic Idealize.ShloMosaic.TcCoe Idealize.ShloMosaic.ValueIdx Idealize.SL.Sem

/-- The second region's function of the first region's two outputs is the scale-first arrangement. -/
theorem conv_of_first (X : SX.Idx → EReal) (A : SA.Idx → EReal) (W : SW.Idx → EReal) :
    Region1.convArr A (Region0.scaledArr X A W) (Region0.degreeArr A) = GK X A W := by
  funext i
  obtain ⟨p, c, rfl⟩ : ∃ (p : Fin 8192) (c : Fin 256), i = ix2 p c := ⟨i 0, i 1, eq_ix2 i⟩
  rfl

variable (m : (ℓ : Loc nD τ sig) → Buf (Elt Ideal) ℓ) (ρ : Dev nD → PrngReg)

/-- The result array's final contents, from the launch contents of the three arguments. -/
theorem result_value (c : Dev nD) :
    W2 m ρ c (Proc.devRef .tc main_v1)
      = GK (m ((c : Thread nD τ).loc main_arg0)) (m ((c : Thread nD τ).loc main_arg1)) (m ((c : Thread nD τ).loc main_arg2)) := by
  rw [W2_result, Region1.conv_final (V1 m ρ) c, V1_adjacency, V1_scaled, V1_degree,
    Region0.scaled_final (V0 m ρ) c, Region0.degree_final (V0 m ρ) c]
  exact conv_of_first _ _ _

/-- The idealized kernel's run: the result at `GK` of the arguments, the arguments unchanged. -/
theorem run : θ_run defs (onTc (τ := τ) (main (F := Ideal))) ⟨m, fun _ => 0, ρ⟩ (fun r => ∀ c : Dev nD,
      r.2.mem ((c.tc : Thread nD τ).loc main_v1)
        = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_value m ρ)

end Cert.GraphConv.KernelRun

end
-- ==== Proof.LibOneHot.lean ====
/-
  Sums against a one-hot row, on the extended reals.

  A row of weights that is 1 at one position p and 0 elsewhere selects the p-th term of a sum:
  sum_k w_k * f k = f p. On the extended reals this needs no finiteness of f, because 0 * x = 0 for
  every x (the infinities included) and 1 * x = x. The weights met in practice are the unsigned
  reading of a one-bit equality test between a 32-bit counter word and a 32-bit table word, so the
  two facts about such words that turn the test into "k = p" are here as well.
-/
import Idealize.ShloMosaic.PureOps.Ideal

open Idealize.ShloMosaic

namespace Cert.OneHot

/-- A sum against the indicator of one position is the term at that position. -/
theorem sum_indicator_mul {n : ℕ} (p : Fin n) (f : Fin n → EReal) :
    ∑ k : Fin n, (if k = p then (1 : EReal) else 0) * f k = f p := by
  rw [Finset.sum_eq_single p]
  · rw [if_pos rfl, one_mul]
  · intro k _ hk
    rw [if_neg hk, zero_mul]
  · intro h
    exact absurd (Finset.mem_univ p) h

/-- The same for any weights that are, position by position, the indicator of one position. -/
theorem sum_onehot_mul {n : ℕ} (p : Fin n) (w f : Fin n → EReal) (hw : ∀ k, w k = if k = p then 1 else 0) :
    ∑ k : Fin n, w k * f k = f p :=
  (Finset.sum_congr rfl (fun k _ => by rw [hw k])).trans (sum_indicator_mul p f)

/-- The one-bit word of an equality test, read unsigned and then as an extended real, is 1 where the
    two words are equal and 0 where they differ. -/
theorem toNat_cmpi_eq (x y : BitVec 32) :
    (((IntOp.cmpi .eq x y).toNat : ℝ) : EReal) = if x = y then 1 else 0 := by
  by_cases h : x = y
  · subst h
    simp [IntOp.cmpi]
  · simp [IntOp.cmpi, h]

/-- A counter below 2^32, written as a 32-bit word, equals a word w exactly when the counter is the
    number w denotes. -/
theorem ofNat_eq_iff {k : ℕ} (hk : k < 2 ^ 32) (w : BitVec 32) : BitVec.ofNat 32 k = w ↔ k = w.toNat := by
  constructor
  · intro h
    rw [← h, BitVec.toNat_ofNat, Nat.mod_eq_of_lt hk]
  · intro h
    apply BitVec.eq_of_toNat_eq
    rw [BitVec.toNat_ofNat, Nat.mod_eq_of_lt hk, h]

/-- The one-hot row read off a table word w that denotes a position below n: the test of the
    counter word k against w is the indicator of k = w. -/
theorem weight_eq_indicator {n : ℕ} (hn : n ≤ 2 ^ 32) (w : BitVec 32) (hw : w.toNat < n) (k : Fin n) :
    (((IntOp.cmpi .eq (BitVec.ofNat 32 k.val) w).toNat : ℝ) : EReal)
      = if k = (⟨w.toNat, hw⟩ : Fin n) then 1 else 0 := by
  rw [toNat_cmpi_eq]
  have hk : k.val < 2 ^ 32 := lt_of_lt_of_le k.isLt hn
  by_cases h : k = (⟨w.toNat, hw⟩ : Fin n)
  · rw [if_pos h, if_pos ((ofNat_eq_iff hk w).mpr (congrArg Fin.val h))]
  · rw [if_neg h, if_neg (fun e => h (Fin.ext ((ofNat_eq_iff hk w).mp e)))]

end Cert.OneHot
-- ==== Proof.RefValue.lean ====
/-
  The reference program, read index by index, is the specification's array GR.

  The reference computes the degree of each row of A as a row sum, takes its reciprocal square
  root, builds the identity matrix as the unsigned reading of an equality test between the row
  counter and the column counter, forms dinv p * (A[p, j] + [p = j]) * dinv j entry by entry,
  contracts that matrix against the projected features X * W and clips at zero from below.
  Each of these steps is read at an index and identified with the matching piece of the
  specification.
-/
import proofs.«159650_j87935160418607_2_alg».proof.Proof.Gen.ReferenceIdeal.Read
import proofs.«159650_j87935160418607_2_alg».proof.Proof.Spec
import proofs.«159650_j87935160418607_2_alg».proof.Proof.LibOneHot

noncomputable section

namespace Cert.GraphConv

open Idealize.ShloMosaic Idealize.ShloMosaic.ValueIdx
open Cert.ReferenceIdeal Cert.ReferenceIdeal.Read
open scoped BigOperators

/-- The reference's row sum of A, started from the zero literal, is the degree. -/
theorem ref_deg (x1 : (⟨S8192x8192, .f32⟩ : BufTy).Contents (Elt Ideal)) (p : Fin 8192) :
    val_main_v0 (F := Ideal) x1 (ix1 p) = deg x1 p := by
  rw [val_main_v0_apply, val_main_cst_apply, Ideal.ofBits_def, Ideal.ofBits_zero_f32, zero_add]
  unfold deg
  refine Finset.sum_congr rfl fun k _ => congrArg x1 ?_
  exact funext fun a => Fin.ext (by match a with | ⟨0, _⟩ => rfl | ⟨1, _⟩ => rfl)

/-- Its reciprocal square root is dinv. -/
theorem ref_dinv (x1 : (⟨S8192x8192, .f32⟩ : BufTy).Contents (Elt Ideal)) (p : Fin 8192) :
    val_main_v1 (F := Ideal) x1 (ix1 p) = dinv x1 p := by
  rw [val_main_v1_apply, Ideal.hostUnary_rsqrt_def, ref_deg]
  rfl

/-- Two counters below 2^32 written as 32-bit words are equal words exactly when they are the
    same counter. -/
theorem ofNat_eq_ofNat_iff (p j : Fin 8192) :
    BitVec.ofNat 32 p.val = BitVec.ofNat 32 j.val ↔ p = j := by
  have hp : p.val < 2 ^ 32 := lt_trans p.isLt (by norm_num)
  have hj : j.val < 2 ^ 32 := lt_trans j.isLt (by norm_num)
  rw [Cert.OneHot.ofNat_eq_iff hp, BitVec.toNat_ofNat, Nat.mod_eq_of_lt hj]
  exact ⟨fun h => Fin.ext h, fun h => congrArg Fin.val h⟩

/-- The reference's identity matrix: the equality test of the row counter (plus the zero word)
    against the column counter, read unsigned, is the indicator of the diagonal. -/
theorem ref_eye (p j : Fin 8192) :
    val_main_v7 (F := Ideal) (ix2 p j) = if p = j then (1 : EReal) else 0 := by
  rw [val_main_v7_apply, val_main_v6_apply, val_main_v5_apply, val_main_v2_apply, val_main_v3_apply,
    val_main_v4_apply, val_main_c_apply]
  show (((IntOp.cmpi .eq (IntOp.addi (BitVec.ofNat 32 p.val) 0#32) (BitVec.ofNat 32 j.val)).toNat : ℝ) : EReal) = _
  rw [Cert.OneHot.toNat_cmpi_eq]
  have h0 : IntOp.addi (BitVec.ofNat 32 p.val) 0#32 = BitVec.ofNat 32 p.val := by
    unfold IntOp.addi
    exact BitVec.add_zero _
  rw [h0]
  by_cases h : p = j
  · rw [if_pos h, if_pos ((ofNat_eq_ofNat_iff p j).mpr h)]
  · rw [if_neg h, if_neg (fun e => h ((ofNat_eq_ofNat_iff p j).mp e))]

/-- One entry of the reference's normalised matrix: dinv of the row times (A plus the identity),
    then times dinv of the column, in the order the reference multiplies them. -/
theorem ref_norm (x1 : (⟨S8192x8192, .f32⟩ : BufTy).Contents (Elt Ideal)) (p j : Fin 8192) :
    val_main_v14 (F := Ideal) x1 (ix2 p j)
      = (dinv x1 p * (x1 (ix2 p j) + if p = j then 1 else 0)) * dinv x1 j := by
  rw [val_main_v14_apply, val_main_v11_apply, val_main_v10_apply, val_main_v9_apply,
    val_main_v13_apply, val_main_v12_apply, val_main_v8_apply, ref_eye,
    Ideal.mulf_def, Ideal.mulf_def, Ideal.addf_def]
  have e1 : idx_main_v9 (idx_main_v10 (ix2 p j)) = ix1 p :=
    funext fun a => Fin.ext (by match a with | ⟨0, _⟩ => rfl)
  have e2 : idx_main_v12 (idx_main_v13 (ix2 p j)) = ix1 j :=
    funext fun a => Fin.ext (by match a with | ⟨0, _⟩ => rfl)
  rw [e1, e2, ref_dinv, ref_dinv]

/-- The reference's first contraction is the projected features X * W. -/
theorem ref_xw (x0 : (⟨S8192x512, .f32⟩ : BufTy).Contents (Elt Ideal))
    (x2 : (⟨S512x256, .f32⟩ : BufTy).Contents (Elt Ideal)) (j : Fin 8192) (c : Fin 256) :
    val_main_v15 (F := Ideal) x0 x2 (ix2 j c) = xw x0 x2 j c := by
  rw [val_main_v15_apply]
  unfold xw
  refine Finset.sum_congr rfl fun k _ => ?_
  have el : lidx_main_v15 (ix2 j c) k = ix2 j k :=
    funext fun a => Fin.ext (by match a with | ⟨0, _⟩ => rfl | ⟨1, _⟩ => rfl)
  have er : ridx_main_v15 (ix2 j c) k = ix2 k c :=
    funext fun a => Fin.ext (by match a with | ⟨0, _⟩ => rfl | ⟨1, _⟩ => rfl)
  rw [el, er]

/-- The reference's result is the array GR of the specification: its second contraction runs the
    normalised matrix against the projected features, and the final maximum is against the zero
    literal. -/
theorem reference_value
    (x0 : (⟨Cert.ReferenceIdeal.S8192x512, .f32⟩ : BufTy).Contents (Elt Ideal))
    (x1 : (⟨Cert.ReferenceIdeal.S8192x8192, .f32⟩ : BufTy).Contents (Elt Ideal))
    (x2 : (⟨Cert.ReferenceIdeal.S512x256, .f32⟩ : BufTy).Contents (Elt Ideal)) :
    Cert.ReferenceIdeal.Read.val_main_v17 (F := Ideal) x0 x1 x2 = GR x0 x1 x2 := by
  funext i
  obtain ⟨p, c, rfl⟩ : ∃ (p : Fin 8192) (c : Fin 256), i = ix2 p c := ⟨i 0, i 1, eq_ix2 i⟩
  rw [val_main_v17_apply, val_main_call0_v0_apply, val_main_call0_cst_apply, Ideal.ofBits_def,
    Ideal.ofBits_zero_f32, Ideal.maximumf_def, val_main_v16_apply, GR_ix2]
  unfold outR
  refine congrArg (max · 0) (Finset.sum_congr rfl fun j _ => ?_)
  have el : lidx_main_v16 (ix2 p c) j = ix2 p j :=
    funext fun a => Fin.ext (by match a with | ⟨0, _⟩ => rfl | ⟨1, _⟩ => rfl)
  have er : ridx_main_v16 (ix2 p c) j = ix2 j c :=
    funext fun a => Fin.ext (by match a with | ⟨0, _⟩ => rfl | ⟨1, _⟩ => rfl)
  rw [el, er, ref_norm, ref_xw]

end Cert.GraphConv

end
-- ==== Proof.Algebra.lean ====
/-
  The algebra joining the two arrangements of the graph convolution.

  When every entry of X, A and W is a real number and every row degree is positive, the reciprocal
  square root of a degree is itself a real number, so every quantity of the specification is the
  image of a real number in the extended reals.  Over the reals the two arrangements agree by
  distributivity: writing d for dinv, a p j for A[p, j] and y j for the projected feature xw j c,

    d p * ((Σ_j a p j * (d j * y j)) + d p * y p)
      = Σ_j ((d p * (a p j + [p = j])) * d j) * y j,

  because the indicator term contributes exactly d p * d p * y p.  The extended reals are not
  distributive at the infinities, which is why finiteness and positivity are hypotheses.
-/
import proofs.«159650_j87935160418607_2_alg».proof.Proof.Spec

noncomputable section

namespace Cert.GraphConv

open Idealize.ShloMosaic Idealize.ShloMosaic.ValueIdx
open scoped BigOperators

/-- The identity over the reals, for any finite index type: splitting the indicator off the
normalised sum leaves the contraction against the scaled features plus the self-loop term. -/
theorem real_graphconv_identity {ι : Type*} [Fintype ι] [DecidableEq ι]
    (d : ι → ℝ) (a : ι → ι → ℝ) (y : ι → ℝ) (p : ι) :
    d p * ((∑ j, a p j * (d j * y j)) + d p * y p)
      = ∑ j, ((d p * (a p j + if p = j then 1 else 0)) * d j) * y j := by
  have h : ∀ j, ((d p * (a p j + if p = j then 1 else 0)) * d j) * y j
      = d p * (a p j * (d j * y j)) + (if p = j then d p * (d j * y j) else 0) := by
    intro j
    split_ifs <;> ring
  simp only [h]
  rw [Finset.sum_add_distrib, Finset.sum_ite_eq, ← Finset.mul_sum]
  simp only [Finset.mem_univ, if_true]
  ring

/-- The image of a finite real sum in the extended reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The indicator of the extended reals is the image of the real indicator. -/
theorem coe_indicator (P : Prop) [Decidable P] :
    (if P then (1 : EReal) else 0) = (((if P then (1 : ℝ) else 0) : ℝ) : EReal) := by
  split_ifs <;> simp

/-- With real entries and positive row degrees, the two arrangements are the same array. -/
theorem outK_eq_outR (X : SX.Idx → EReal) (A : SA.Idx → EReal) (W : SW.Idx → EReal)
    (hX : ∀ i, ∃ r : ℝ, X i = (r : EReal)) (hA : ∀ i, ∃ r : ℝ, A i = (r : EReal)) (hW : ∀ i, ∃ r : ℝ, W i = (r : EReal))
    (hdeg : ∀ p : Fin 8192, 0 < deg A p) :
    GK X A W = GR X A W := by
  choose rX hrX using hX
  choose rA hrA using hA
  choose rW hrW using hW
  -- the degree is the image of the real row sum, which is therefore positive
  have hdegc : ∀ p : Fin 8192, deg A p = ((∑ j : Fin 8192, rA (ix2 p j) : ℝ) : EReal) := by
    intro p
    unfold deg
    simp only [hrA]
    rw [coe_finset_sum]
  have hpos : ∀ p : Fin 8192, 0 < ∑ j : Fin 8192, rA (ix2 p j) := by
    intro p
    have h := hdeg p
    rw [hdegc p] at h
    exact_mod_cast h
  -- so its reciprocal square root is the image of a real number
  have hdinv : ∀ p : Fin 8192,
      dinv A p = (((Real.sqrt (∑ j : Fin 8192, rA (ix2 p j)))⁻¹ : ℝ) : EReal) := by
    intro p
    unfold dinv
    rw [hdegc p, Ideal.rsqrt_coe, if_neg (not_lt.mpr (hpos p).le), if_neg (hpos p).ne']
  -- and the projected features are images of real numbers
  have hxw : ∀ (p : Fin 8192) (c : Fin 256),
      xw X W p c = ((∑ k : Fin 512, rX (ix2 p k) * rW (ix2 k c) : ℝ) : EReal) := by
    intro p c
    unfold xw
    simp only [hrX, hrW, ← EReal.coe_mul]
    rw [coe_finset_sum]
  funext i
  obtain ⟨p, c, rfl⟩ : ∃ (p : Fin 8192) (c : Fin 256), i = ix2 p c := ⟨i 0, i 1, eq_ix2 i⟩
  rw [GK_ix2, GR_ix2]
  unfold outK outR xws
  simp only [hdinv, hxw, hrA, coe_indicator, ← EReal.coe_mul, ← EReal.coe_add, ← coe_finset_sum]
  exact congrArg (fun t : ℝ => max (t : EReal) 0)
    (real_graphconv_identity (fun q : Fin 8192 => (Real.sqrt (∑ j : Fin 8192, rA (ix2 q j)))⁻¹)
      (fun q j => rA (ix2 q j)) (fun j => ∑ k : Fin 512, rX (ix2 j k) * rW (ix2 k c)) p)

end Cert.GraphConv

end
-- ==== Proof.PreFacts.lean ====
/-
  What the precondition gives.  The precondition is a conjunction of four tests on the three argument arrays: for each
  array, that every entry x has |x| < +∞, and, for the adjacency matrix A, that every row sum Σ_j A[p, j] is above zero.
  Over the extended reals |x| is max x (-x), which is +∞ at both infinities, so the first three tests say that every
  entry is a real number; the fourth says that every degree deg p = Σ_j A[p, j] is positive.
-/
import proofs.«159650_j87935160418607_2_alg».proof.Pre_finite_inputs
import proofs.«159650_j87935160418607_2_alg».proof.Proof.Spec
import proofs.«159650_j87935160418607_2_alg».proof.Proof.LibKeepdims
import Idealize.ShloMosaic.Lib.ReduceAll
import Idealize.ShloMosaic.Lib.ValueIdx
import Idealize.ShloMosaic.Lib.IdealHost
import Idealize.ShloMosaic.PureOps.Ideal.Laws

noncomputable section

namespace Cert.GraphConv

open Idealize.ShloMosaic Idealize.ShloMosaic.ValueIdx
open Cert.Pre_finite_inputs
open scoped BigOperators

/-- The shape of a single number has exactly one index. -/
instance : Subsingleton S_.Idx := ⟨fun a b => funext fun d => d.elim0⟩

/-- A decided proposition's bit is 1 exactly when the proposition holds. -/
theorem bit_eq_one_iff {P : Prop} [Decidable P] : BitVec.ofBool (decide P) = 1#1 ↔ P := by
  by_cases hP : P <;> simp [hP]

/-- The comparison "strictly below" on the extended reals gives the bit 1 exactly when a < b. -/
theorem cmp_olt_eq_one (a b : EReal) : Ideal.cmp .olt a b = 1#1 ↔ a < b := by
  show BitVec.ofBool (decide (a < b)) = 1#1 ↔ a < b
  exact bit_eq_one_iff

/-- The comparison "strictly above" on the extended reals gives the bit 1 exactly when b < a. -/
theorem cmp_ogt_eq_one (a b : EReal) : Ideal.cmp .ogt a b = 1#1 ↔ b < a := by
  show BitVec.ofBool (decide (b < a)) = 1#1 ↔ b < a
  exact bit_eq_one_iff

/-- The single-precision pattern with all exponent bits set and no fraction bit denotes +∞. -/
theorem ofBits_inf_f32 : Ideal.ofBits .f32 0x7F800000#32 = (⊤ : EReal) := by
  simp [Ideal.ofBits, Ideal.ieee]

/-- An extended real x with max x (-x) < +∞ is a real number: at -∞ and at +∞ the maximum is +∞. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The test "every entry has absolute value below +∞", read back: every entry of the array is a real number. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf (F := Ideal) x) (broadcastInDim s ![] hb (constant (F := Ideal) S_ .f32 0x7F800000#32)))
          (constantI S_ 1 1#1) hr hu ix0 = 1#1) (i : s.Idx) : ∃ r : ℝ, x i = (r : EReal) := by
  have hi := Host.reduce_andi_all _ _ hr hu ix0 e i
  rw [cmpf_apply, broadcastInDim_scalar_apply, constant_apply, ofBits_inf_f32] at hi
  exact real_of_abs_lt_top (x i) ((cmp_olt_eq_one _ _).1 hi)

/-- The test "every row sum of the matrix is above zero", read back: every degree is positive.  The host's sum over the
    second axis, started from zero, is at row p the sum over j of the entries (p, j). -/
theorem deg_pos_of_all {A : FVec Ideal S8192x8192 .f32}
    (hr : S8192x8192.ReducesTo [1] S8192) (hb : S_.BroadcastsInDim S8192 (![] : Fin 0 → Fin S8192.rank))
    (hr' : S8192.ReducesTo [0] S_) (hu : 0 < S_.numel)
    (e : Host.reduce IntOp.andi
          (cmpf .ogt (Host.reduceAdd A (constant (F := Ideal) S_ .f32 0x00000000#32) hr hu)
            (broadcastInDim S8192 ![] hb (constant (F := Ideal) S_ .f32 0x00000000#32)))
          (constantI S_ 1 1#1) hr' hu ix0 = 1#1) (p : Fin 8192) : 0 < deg A p := by
  have hp := Host.reduce_andi_all _ _ hr' hu ix0 e (ix1 p)
  rw [cmpf_apply, broadcastInDim_scalar_apply, constant_apply,
    Cert.Keepdims.host_sum_over_columns_apply A _ hr (by decide) hu p, constant_apply, Ideal.ofBits_zero_f32,
    zero_add] at hp
  exact (cmp_ogt_eq_one _ _).1 hp

/-- THE PRECONDITION DECODED: the three argument arrays hold real numbers only, and every row of the adjacency matrix
    has a positive sum. -/
theorem facts_of_pre [Cert.Pre_finite_inputs.Facts]
    (x0 : FVec Ideal Cert.Pre_finite_inputs.S8192x512 .f32) (x1 : FVec Ideal Cert.Pre_finite_inputs.S8192x8192 .f32)
    (x2 : FVec Ideal Cert.Pre_finite_inputs.S512x256 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal))
      ∧ ∀ p : Fin 8192, 0 < deg x1 p := by
  have e := congrFun h ix0
  dsimp only [fn, fn_part1] at e
  obtain ⟨h012, h3⟩ := IntOp.andi_eq_one.1 e
  obtain ⟨h01, h2⟩ := IntOp.andi_eq_one.1 h012
  obtain ⟨h0, h1⟩ := IntOp.andi_eq_one.1 h01
  exact ⟨real_of_all_finite x0 _ _ _ h0, real_of_all_finite x1 _ _ _ h1, real_of_all_finite x2 _ _ _ h2,
    deg_pos_of_all _ _ _ _ h3⟩

end Cert.GraphConv

end
-- ==== Proof.lean ====
/-
  A graph convolution in two arrangements.  With deg p the sum of row p of the adjacency matrix A and
  dinv p = 1 / √(deg p), the kernel scales the projected features X · W by their own row's dinv, contracts them against
  A, adds each row's own scaled features (the self loop) and scales the row by dinv again; the reference builds the
  normalised matrix dinv p · (A[p, j] + [p = j]) · dinv j entry by entry and contracts it against X · W.  Both clip at
  zero.  Under the precondition — every entry of the three arguments a real number and every row of A of positive sum,
  so that every dinv is a positive real — the two are equal by distributing the row's factor over the sum and splitting
  the indicator off; the extended reals do not distribute at the infinities, which is where the precondition is used.
  The kernel's value is read off its two regions' runs (block by block, the blocks tiling the arrays; the second
  region's four-trip loop summed chunk by chunk into one contraction), the reference's off its run operation by
  operation; the frames are the programs' own runs and the idealization rewrote no operation.
-/
import proofs.«159650_j87935160418607_2_alg».proof.Defs
import proofs.«159650_j87935160418607_2_alg».proof.Proof.Gen.Kernel
import proofs.«159650_j87935160418607_2_alg».proof.Proof.Gen.Kernel.Skeleton
import proofs.«159650_j87935160418607_2_alg».proof.Proof.Gen.Kernel.Loops
import proofs.«159650_j87935160418607_2_alg».proof.Proof.Gen.Kernel.Launch
import proofs.«159650_j87935160418607_2_alg».proof.Proof.Gen.Kernel.Points
import proofs.«159650_j87935160418607_2_alg».proof.Proof.Gen.Kernel.Frame
import proofs.«159650_j87935160418607_2_alg».proof.Proof.Gen.KernelIdeal
import proofs.«159650_j87935160418607_2_alg».proof.Proof.Gen.KernelIdeal.Skeleton
import proofs.«159650_j87935160418607_2_alg».proof.Proof.Gen.KernelIdeal.Loops
import proofs.«159650_j87935160418607_2_alg».proof.Proof.Gen.KernelIdeal.Launch
import proofs.«159650_j87935160418607_2_alg».proof.Proof.Gen.KernelIdeal.Points
import proofs.«159650_j87935160418607_2_alg».proof.Proof.Gen.KernelIdeal.Frame
import proofs.«159650_j87935160418607_2_alg».proof.Proof.Gen.ReferenceIdeal
import proofs.«159650_j87935160418607_2_alg».proof.Proof.Gen.Pre_finite_inputs
import proofs.«159650_j87935160418607_2_alg».proof.Proof.Gen.ReferenceIdeal.Run
import proofs.«159650_j87935160418607_2_alg».proof.Proof.Gen.ReferenceIdeal.Read
import proofs.«159650_j87935160418607_2_alg».proof.Proof.KernelValue
import proofs.«159650_j87935160418607_2_alg».proof.Proof.RefValue
import proofs.«159650_j87935160418607_2_alg».proof.Proof.Algebra
import proofs.«159650_j87935160418607_2_alg».proof.Proof.PreFacts
import Idealize.ShloMosaic.Adequacy
import Idealize.ShloMosaic.Init

noncomputable section

namespace Cert.Proof

open Idealize.ShloMosaic Idealize.ShloMosaic.TcCoe Idealize.SL.Sem

/-- Each program runs and leaves its arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals the two programs end with the same array: the kernel's run ends at the scale-first arrangement
    of its arguments, the reference's at the entry-by-entry normalised one, and under the precondition the two agree. -/
theorem algebraic : Cert.algebraic_KernelIdeal_ReferenceIdeal := by
  intro m ρ m' ρ' hpre hagree
  refine ⟨fun c => Cert.GraphConv.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.GraphConv.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.GraphConv.reference_value, (hagree c).1, (hagree c).2.1, (hagree c).2.2]
  obtain ⟨hX, hA, hW, hdeg⟩ := Cert.GraphConv.facts_of_pre _ _ _ (hpre c)
  exact (Cert.GraphConv.outK_eq_outR _ _ _ hX hA hW hdeg).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
